-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 4
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S400x128, .f32⟩
  | .local _ .vmem, ⟨7, _⟩ => ⟨S400x128, .f32⟩
  | .local _ .vmem, ⟨8, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .i1⟩
  | .hbm, ⟨8, _⟩ => ⟨S_, .f32⟩
  | .hbm, ⟨9, _⟩ => ⟨S10000x128, .f32⟩
  | .hbm, ⟨10, _⟩ => ⟨S10000x128, .f32⟩
  | .hbm, ⟨11, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BitsFrame.Entry.lean ====
/-
  The region's entry, for the layer out = leaky_relu(adj · (features · weight)) run as one pipelined kernel
  over 25 grid points. The arrays are as launched (the program is the region alone). Window w's block at
  point t is the part of its array the index map selects: all of features and of weight at every point, rows
  400t .. 400t+199 of adj for window 2 and rows 400t+200 .. 400t+399 of adj for window 3, rows 400t .. 400t+399
  of the result for window 4. An input window's staging buffer holds its block whenever the body runs, whether
  the point fetched it or not. The body's one branch is taken exactly at the first point.
-/
import proofs.«157069_g75763223102025_cont_9to1_m_1222_10_alg».proof.Proof.Gen.Kernel.Launch
import proofs.«157069_g75763223102025_cont_9to1_m_1222_10_alg».proof.Proof.Gen.Kernel.Skeleton
import proofs.«157069_g75763223102025_cont_9to1_m_1222_10_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program is the region alone -/

/-- A core's buffers when the region is entered: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The features window's staging buffer holds all of features at every point. -/
theorem before_features {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's staging buffer holds all of weight at every point. -/
theorem before_weight {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The first adj window's staging buffer holds its 200 rows of adj at every point. -/
theorem before_adjLo {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The second adj window's staging buffer holds its 200 rows of adj at every point. -/
theorem before_adjHi {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's branch, from the grid coordinates. -/
abbrev atFirst (i : grid0.Coords) : Prop := (Scalar.cmpi .ne (Scalar.extui (Scalar.cmpi .eq (BitVec.ofNat 32 (i 0).val) 0#32)) 0#32) = 1#1

/-- It holds at the first point only. -/
theorem atFirst_iff : ∀ t : Fin cfg0.N, atFirst (grid0.coords t) ↔ t.val = 0 :=
  (by decide +kernel : ∀ t : Fin grid0.N, atFirst (grid0.coords t) ↔ t.val = 0)

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The scratch that keeps features · weight from the first point on. -/
abbrev scM : Memref sig .tc .vmem S10000x128 .f32 := Memref.whole cc0_scratch0
/-- One staging buffer of the result window, and the scratch, as views through which contents are stated. -/
abbrev VO : View sig .tc .vmem S400x128 .f32 := (Memref.whole cc0_stg4_0 : Memref sig .tc .vmem S400x128 .f32).view
abbrev VS : View sig .tc .vmem S10000x128 .f32 := scM.view

/-- The scoped buffers the pipeline does not stage are the scratch alone: before the first point it holds anything. -/
theorem scopedRest_scr (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Hand

end
-- ==== Proof.BitsFrame.FirstPoint.lean ====
/-
  The body at the first point. There the branch is taken: the body loads features and weight, stores their
  product into the scratch, then loads the two blocks of adj and the scratch and stores the two halves of the
  result block. The run is stated on any whole staging memrefs: the inputs at their contents, the result
  buffer and the scratch at anything; it ends with the inputs as they were and with the result buffer and the
  scratch overwritten by lists of pieces that the symbolic run finds.
-/
import proofs.«157069_g75763223102025_cont_9to1_m_1222_10_alg».proof.Proof.BitsFrame.Entry

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the result buffer and in the scratch at the first point, with the
    proof that the body runs to a continuation holding them written. -/
noncomputable def runFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc0 : atFirst i)
    (x0 : Vec F S10000x128 .f32) (x1 : Vec F S128x128 .f32) (x2 : Vec F S200x10000 .f32) (x3 : Vec F S200x10000 .f32) :
    Σ' (L4 : List (View.Piece (Elt F) S400x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__gnn_body i arg1 harg1 arg2 harg2 arg3 harg3 arg4 harg4 arg5 harg5 arg6 harg6) K } := by
  refine ⟨?_, ?_, fun E K => ?run⟩
  case run =>
    simp only [cc0__gnn_body_eq_skeleton]; unfold cc0__gnn_body_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.Kernel.Hand

end
-- ==== Proof.BitsFrame.LaterPoint.lean ====
/-
  The body at a later point. There the branch is not taken: the body loads the two blocks of adj and the
  scratch, which still holds what the first point stored, and stores the two halves of the result block. The
  run ends with the inputs and the scratch as they were and with the result buffer overwritten by a list of
  pieces that the symbolic run finds.
-/
import proofs.«157069_g75763223102025_cont_9to1_m_1222_10_alg».proof.Proof.BitsFrame.FirstPoint

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the result buffer at a later point, with the proof that the body
    runs to a continuation holding them written, the scratch untouched at the contents `xs` it was handed. -/
noncomputable def runLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc0 : ¬atFirst i)
    (x0 : Vec F S10000x128 .f32) (x1 : Vec F S128x128 .f32) (x2 : Vec F S200x10000 .f32) (x3 : Vec F S200x10000 .f32) (xs : Vec F S10000x128 .f32) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__gnn_body i arg1 harg1 arg2 harg2 arg3 harg3 arg4 harg4 arg5 harg5 arg6 harg6) K } := by
  refine ⟨?_, fun E K => ?run⟩
  case run =>
    simp only [cc0__gnn_body_eq_skeleton]; unfold cc0__gnn_body_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3
    obtain rfl := harg6.eq_unread hfs
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS

end Cert.Kernel.Hand

end
-- ==== Proof.BitsFrame.Data.lean ====
/-
  The proof data of the pipeline. After the first point the scratch holds features · weight, and it keeps
  that until the end (`support`). After the body at point t the result window's staging buffer holds the
  pieces that point's run stored, read back (`outsAt`); every input window's buffer holds its block. adj is
  read by two windows, each holding one half of the share of its array; the result array is held outright.
  The body obligation at a point is the run of the first or of a later point, by cases on the point.
-/
import proofs.«157069_g75763223102025_cont_9to1_m_1222_10_alg».proof.Proof.BitsFrame.LaterPoint

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the runs leave -/

/-- The first point's two stores into the result buffer tile it, so they cover it. -/
theorem coverFirst_out (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc0 : atFirst i)
    (x0 : Vec F S10000x128 .f32) (x1 : Vec F S128x128 .f32) (x2 : Vec F S200x10000 .f32) (x3 : Vec F S200x10000 .f32) (y : S400x128.Idx) :
    ∃ pc ∈ (runFirst c i arg1 harg1 arg2 harg2 arg3 harg3 arg4 harg4 arg5 harg5 arg6 harg6 hc0 x0 x1 x2 x3).1, y ∈ pc.1.set :=
  View.cover_of_tiledL (runFirst c i arg1 harg1 arg2 harg2 arg3 harg3 arg4 harg4 arg5 harg5 arg6 harg6 hc0 x0 x1 x2 x3).1 S200x128.size (by sl_kernel_rfl) y

/-- What the first point leaves in the result buffer: its pieces read back. -/
def outFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc0 : atFirst i)
    (x0 : Vec F S10000x128 .f32) (x1 : Vec F S128x128 .f32) (x2 : Vec F S200x10000 .f32) (x3 : Vec F S200x10000 .f32) : Vec F S400x128 .f32 :=
  VO.read (Elt F) (VO.writes (Elt F) VO.junk (runFirst c i arg1 harg1 arg2 harg2 arg3 harg3 arg4 harg4 arg5 harg5 arg6 harg6 hc0 x0 x1 x2 x3).1)

/-- The first point's store into the scratch covers it. -/
theorem coverFirst_scr (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc0 : atFirst i)
    (x0 : Vec F S10000x128 .f32) (x1 : Vec F S128x128 .f32) (x2 : Vec F S200x10000 .f32) (x3 : Vec F S200x10000 .f32) (y : S10000x128.Idx) :
    ∃ pc ∈ (runFirst c i arg1 harg1 arg2 harg2 arg3 harg3 arg4 harg4 arg5 harg5 arg6 harg6 hc0 x0 x1 x2 x3).2.1, y ∈ pc.1.set :=
  View.cover_of_tiledL (runFirst c i arg1 harg1 arg2 harg2 arg3 harg3 arg4 harg4 arg5 harg5 arg6 harg6 hc0 x0 x1 x2 x3).2.1 S10000x128.size (by sl_kernel_rfl) y

/-- What the first point leaves in the scratch: its piece read back. -/
def scrFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc0 : atFirst i)
    (x0 : Vec F S10000x128 .f32) (x1 : Vec F S128x128 .f32) (x2 : Vec F S200x10000 .f32) (x3 : Vec F S200x10000 .f32) : Vec F S10000x128 .f32 :=
  VS.read (Elt F) (VS.writes (Elt F) VS.junk (runFirst c i arg1 harg1 arg2 harg2 arg3 harg3 arg4 harg4 arg5 harg5 arg6 harg6 hc0 x0 x1 x2 x3).2.1)

/-- A later point's two stores into the result buffer tile it, so they cover it. -/
theorem coverLater_out (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc0 : ¬atFirst i)
    (x0 : Vec F S10000x128 .f32) (x1 : Vec F S128x128 .f32) (x2 : Vec F S200x10000 .f32) (x3 : Vec F S200x10000 .f32) (xs : Vec F S10000x128 .f32) (y : S400x128.Idx) :
    ∃ pc ∈ (runLater c i arg1 harg1 arg2 harg2 arg3 harg3 arg4 harg4 arg5 harg5 arg6 harg6 hc0 x0 x1 x2 x3 xs).1, y ∈ pc.1.set :=
  View.cover_of_tiledL (runLater c i arg1 harg1 arg2 harg2 arg3 harg3 arg4 harg4 arg5 harg5 arg6 harg6 hc0 x0 x1 x2 x3 xs).1 S200x128.size (by sl_kernel_rfl) y

/-- What a later point leaves in the result buffer: its pieces read back. -/
def outLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc0 : ¬atFirst i)
    (x0 : Vec F S10000x128 .f32) (x1 : Vec F S128x128 .f32) (x2 : Vec F S200x10000 .f32) (x3 : Vec F S200x10000 .f32) (xs : Vec F S10000x128 .f32) : Vec F S400x128 .f32 :=
  VO.read (Elt F) (VO.writes (Elt F) VO.junk (runLater c i arg1 harg1 arg2 harg2 arg3 harg3 arg4 harg4 arg5 harg5 arg6 harg6 hc0 x0 x1 x2 x3 xs).1)

/-! ## Point by point -/

theorem N_pos : 0 < cfg0.N := by rw [show cfg0.N = 25 from N_0]; omega

/-- The first point. -/
abbrev t₀ : Fin cfg0.N := ⟨0, N_pos⟩

/-- What the scratch holds from the first point on. -/
def support (c : Dev nD) : Vec F S10000x128 .f32 :=
  scrFirst c (grid0.coords t₀) (ms0 t₀) (hs0 t₀) (ms1 t₀) (hs1 t₀) (ms2 t₀) (hs2 t₀) (ms3 t₀) (hs3 t₀) (ms4 t₀) (hs4 t₀) scM (Memref.isWhole_whole _) ((atFirst_iff t₀).mpr rfl) (iblk m c 0 t₀) (iblk m c 1 t₀) (iblk m c 2 t₀) (iblk m c 3 t₀)

/-- What the result window's staging buffer holds after the body at position `n`. -/
def outsAt (c : Dev nD) (n : ℕ) (hn : n < cfg0.N) : Vec F S400x128 .f32 :=
  if h : n = 0 then
    outFirst c (grid0.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) scM (Memref.isWhole_whole _) ((atFirst_iff ⟨n, hn⟩).mpr h) (iblk m c 0 ⟨n, hn⟩) (iblk m c 1 ⟨n, hn⟩) (iblk m c 2 ⟨n, hn⟩) (iblk m c 3 ⟨n, hn⟩)
  else
    outLater c (grid0.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) scM (Memref.isWhole_whole _) (fun hc => h ((atFirst_iff ⟨n, hn⟩).mp hc)) (iblk m c 0 ⟨n, hn⟩) (iblk m c 1 ⟨n, hn⟩) (iblk m c 2 ⟨n, hn⟩) (iblk m c 3 ⟨n, hn⟩) (support m c)

theorem outsAt_first (c : Dev nD) (t : Fin cfg0.N) (h : t.val = 0) :
    outsAt m c t.val t.isLt = outFirst c (grid0.coords t) (ms0 t) (hs0 t) (ms1 t) (hs1 t) (ms2 t) (hs2 t) (ms3 t) (hs3 t) (ms4 t) (hs4 t) scM (Memref.isWhole_whole _) ((atFirst_iff t).mpr h) (iblk m c 0 t) (iblk m c 1 t) (iblk m c 2 t) (iblk m c 3 t) := by
  unfold outsAt; exact dif_pos h

theorem outsAt_later (c : Dev nD) (t : Fin cfg0.N) (h : ¬t.val = 0) :
    outsAt m c t.val t.isLt = outLater c (grid0.coords t) (ms0 t) (hs0 t) (ms1 t) (hs1 t) (ms2 t) (hs2 t) (ms3 t) (hs3 t) (ms4 t) (hs4 t) scM (Memref.isWhole_whole _) (fun hc => h ((atFirst_iff t).mp hc)) (iblk m c 0 t) (iblk m c 1 t) (iblk m c 2 t) (iblk m c 3 t) (support m c) := by
  unfold outsAt; exact dif_neg h

/-- The first point's scratch contents are `support`, whichever way the first point is spelled. -/
theorem scrFirst_eq_support (c : Dev nD) (t : Fin cfg0.N) (h : t.val = 0) :
    scrFirst c (grid0.coords t) (ms0 t) (hs0 t) (ms1 t) (hs1 t) (ms2 t) (hs2 t) (ms3 t) (hs3 t) (ms4 t) (hs4 t) scM (Memref.isWhole_whole _) ((atFirst_iff t).mpr h) (iblk m c 0 t) (iblk m c 1 t) (iblk m c 2 t) (iblk m c 3 t) = support m c := by
  obtain ⟨n, hn⟩ := t
  dsimp only at h
  subst h
  rfl

/-- The region invariant before position `n`: before the first point the scratch at anything; afterwards the
    scratch at `support`. -/
def PhiS (c : Dev nD) : (n : ℕ) → n ≤ cfg0.N → sProp 𝕄
  | 0, _ => Pipeline.scopedRest spec0 c
  | _ + 1, _ => owns (c : Thread nD τ) scM fullShare (support m c)

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = owns (c : Thread nD τ) scM fullShare (support m c) := rfl

theorem PhiS_pos (c : Dev nD) (n : ℕ) (h : n ≤ cfg0.N) (hz : n ≠ 0) :
    PhiS m c n h = owns (c : Thread nD τ) scM fullShare (support m c) := by
  cases n with
  | zero => exact absurd rfl hz
  | succ n => rfl

/-! ## The proof data -/

/-- The share each input window holds of its array: the two adj windows one half each. -/
def shareOf : Fin cfg0.W → PosShare TreeShare
  | ⟨2, _⟩ => fullShare.left
  | ⟨3, _⟩ => fullShare.right
  | _ => fullShare

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t.val t.isLt
  Φ t := PhiS m c t.val (Nat.le_of_lt_succ t.isLt)
  q := shareOf
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outsAt m c t.val t.isLt := by dsimp only [dats]

theorem before_0 (c : Dev nD) (t : Fin cfg0.N) (d) : (dats m 0 c).before 0 t d = iblk m c 0 t :=
  before_features m (dats m 0 c) (A_eq m c 0) (after_0 m c) t d
theorem before_1 (c : Dev nD) (t : Fin cfg0.N) (d) : (dats m 0 c).before 1 t d = iblk m c 1 t :=
  before_weight m (dats m 0 c) (A_eq m c 1) (after_1 m c) t d
theorem before_2 (c : Dev nD) (t : Fin cfg0.N) (d) : (dats m 0 c).before 2 t d = iblk m c 2 t :=
  before_adjLo m (dats m 0 c) (A_eq m c 2) (after_2 m c) t d
theorem before_3 (c : Dev nD) (t : Fin cfg0.N) (d) : (dats m 0 c).before 3 t d = iblk m c 3 t :=
  before_adjHi m (dats m 0 c) (A_eq m c 3) (after_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (ms4 t) fullShare (outsAt m c t.val t.isLt) := by
  unfold Dat.leavesExact; rw [show cfg0.idle 4 (cfg0.grid.coords t) = false from rfl, after_4]

set_option maxHeartbeats 4800000 in
/-- The body at any point: every input's memref holds its block; at the first point the scratch holds anything
    and is left at `support`; at a later point it holds `support` and is left so; the result buffer is left at
    the point's pieces read back; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4]
  by_cases hz : t.val = 0
  · rw [outsAt_first m c t hz]
    rw [← scrFirst_eq_support m c t hz]
    unfold outFirst scrFirst; (try dsimp only)
    rw [PhiS_castSucc m c t, PhiS_zero m c _ _ hz, scopedRest_scr]
    iintro ⟨HS, Ho, ⟨%d0, H0⟩, ⟨%d1, H1⟩, ⟨%d2, H2⟩, ⟨%d3, H3⟩, ⟨%d4, H4⟩⟩
    iapply ((runFirst c (grid0.coords t) _ _ _ _ _ _ _ _ _ _ _ _ ((atFirst_iff t).mpr hz) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (coverFirst_scr c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst_out c _ _ _ _ _ _ _ _ _ _ _ _ _ _ _ _ _ _)
  · rw [outsAt_later m c t hz]
    unfold outLater; (try dsimp only)
    rw [PhiS_castSucc m c t, PhiS_pos m c _ _ hz]
    iintro ⟨HS, Ho, ⟨%d0, H0⟩, ⟨%d1, H1⟩, ⟨%d2, H2⟩, ⟨%d3, H3⟩, ⟨%d4, H4⟩⟩
    iapply ((runLater c (grid0.coords t) _ _ _ _ _ _ _ _ _ _ _ _ (fun hc => hz ((atFirst_iff t).mp hc)) (iblk m c 0 t) (iblk m c 1 t) (iblk m c 2 t) (iblk m c 3 t) (support m c)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater_out c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region — the scratch at anything — is the invariant before the first point. -/
theorem hin (c : Dev nD) : iprop((BI.emp : sProp 𝕄) ∗ Pipeline.scopedRest spec0 c) ⊢ (dats m 0 c).Φ 0 := by
  rw [show (dats m 0 c).Φ 0 = PhiS m c 0 (Nat.zero_le _) from rfl, PhiS_zero m c 0 _ rfl]
  iintro ⟨-, H⟩; iexact H

/-- After the last point the invariant gives the scratch back at some contents. -/
theorem hout (c : Dev nD) : (dats m 0 c).Φ (Fin.last cfg0.N) ⊢ iprop((BI.emp : sProp 𝕄) ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), scopedRest_scr]
  iintro HS
  isplitr; · iempintro
  iexists _; iexact HS

end Cert.Kernel.Hand

end
-- ==== Proof.BitsFrame.Launch.lean ====
/-
  The launch. adj is handed to the kernel through two windows, so the buffer behind it, held whole when the
  region is entered, is dealt to them in two halves of its share; features, weight and the result array go
  to their one window each at the full share. With the body obligation this gives the run: every execution
  terminates, and each window's array ends at what the write-backs of the body's results make of its entry
  contents — an input array unchanged.
-/
import proofs.«157069_g75763223102025_cont_9to1_m_1222_10_alg».proof.Proof.BitsFrame.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the windows' arrays, one by one: features, weight, adj, the result. -/
theorem bigSep_arrays {M : Type} [URA M] (Φ : Ref sig .tc → sProp M) :
    bigSep (Finset.univ.image (Pipeline.arrRef spec0)) Φ = iprop(Φ main_arg0 ∗ Φ main_arg2 ∗ Φ main_arg1 ∗ Φ main_v0) :=
  bigSep_eq_bigSepL_of_eq [main_arg0, main_arg2, main_arg1, main_v0] (by decide) (by decide) Φ

/-- The buffers behind the windows' arrays, whole at the entry contents, make the proof data's arrays: the
    adj buffer split between its two windows along the share. -/
theorem arrays_entry (c : Dev nD)
    (G : (w : Fin cfg0.W) → Buf (Elt F) ((cfg0.win w).arr.view.loc (c.tc : Thread nD τ)))
    (hG : ∀ w, G w = V m c (Pipeline.arrRef spec0 w)) :
    (Pipeline.arrBufs (Ix := Unit) (Name := ℕ) (U := UR sig nD τ) (Lvl := ℕ) spec0 c (V m c) : sProp 𝕄) ⊢ (dats m 0 c).arrays G := by
  classical
  have hE : (dats m 0 c).arrays G = bigSep Finset.univ fun w : Fin 5 =>
      ((((c.tc : Thread nD τ).loc (Pipeline.arrRef spec0 w)) ↦{(dats m 0 c).share w} V m c (Pipeline.arrRef spec0 w)) : sProp 𝕄) := by
    unfold Dat.arrays
    exact bigSep_congr fun w _ => by rw [(arr_whole0 w).set_eq_univ, hG]
  rw [hE, bigSep_W0]
  unfold Pipeline.arrBufs
  rw [bigSep_arrays]
  rw [show (dats m 0 c).share 0 = fullShare from rfl, show (dats m 0 c).share 1 = fullShare from rfl,
    show (dats m 0 c).share 2 = fullShare.left from rfl, show (dats m 0 c).share 3 = fullShare.right from rfl,
    show (dats m 0 c).share 4 = fullShare from rfl]
  iintro ⟨H0, H2, H1, Hv⟩
  ihave H1' := (pointsTo_share (PosShare.mem_left_op_right fullShare)).1 $$ H1
  icases H1' with ⟨H1l, H1r⟩
  isplitl [H0]; · iexact H0
  isplitl [H2]; · iexact H2
  isplitl [H1l]; · iexact H1l
  isplitl [H1r]; · iexact H1r
  iexact Hv

set_option backward.isDefEq.respectTransparency.types false in
/-- From any memory with zero counters every weakly fair execution terminates, and every window's array ends
    at what the library computes from the proof data. -/
theorem run_main : θ_run defs (onTc (τ := τ) (main (F := F))) ⟨m, fun _ => 0, ρ⟩
    (fun r => ∀ c : Dev nD, ∀ w : Fin cfg0.W,
      r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := _) (hu₀ := .rfl)
    (V := V m) (hmain := hmain m Variants.none)
    (hsplit := fun c => arrays_entry m c _ (fun _ => rfl))
    (X := fun _ => BI.emp) (Y := fun _ => BI.emp) (Z := fun c => Pipeline.unscopedRest spec0 c (V m c))
    (hX := fun c => by
      iintro H
      isplitr; · iempintro
      iexact H)
    (hin := hin m) (hout := hout m)
    (QY := fun _ _ => True)
    (hY := fun c s' => by
      iintro ⟨-, -, HSI⟩
      imodintro
      isplitr; · ipureintro; trivial
      iexact HSI)
    (hQ := fun s h c w => (h c).1 w)

/-- The frame: the program runs to the end, faults nowhere, and leaves features, adj and weight unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c 0).trans ((dats m 0 c).arrAt_in 0 rfl _), (h c 2).trans ((dats m 0 c).arrAt_in 2 rfl _), (h c 1).trans ((dats m 0 c).arrAt_in 1 rfl _)⟩)
    (run_main m ρ)

end Cert.Kernel.Hand

end
-- ==== Proof.IdealFrame.Entry.lean ====
/-
  The region's entry, for the layer out = leaky_relu(adj · (features · weight)) run as one pipelined kernel
  over 25 grid points. The arrays are as launched (the program is the region alone). Window w's block at
  point t is the part of its array the index map selects: all of features and of weight at every point, rows
  400t .. 400t+199 of adj for window 2 and rows 400t+200 .. 400t+399 of adj for window 3, rows 400t .. 400t+399
  of the result for window 4. An input window's staging buffer holds its block whenever the body runs, whether
  the point fetched it or not. The body's one branch is taken exactly at the first point.
-/
import proofs.«157069_g75763223102025_cont_9to1_m_1222_10_alg».proof.Proof.Gen.KernelIdeal.Launch
import proofs.«157069_g75763223102025_cont_9to1_m_1222_10_alg».proof.Proof.Gen.KernelIdeal.Skeleton
import proofs.«157069_g75763223102025_cont_9to1_m_1222_10_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program is the region alone -/

/-- A core's buffers when the region is entered: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The features window's staging buffer holds all of features at every point. -/
theorem before_features {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's staging buffer holds all of weight at every point. -/
theorem before_weight {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The first adj window's staging buffer holds its 200 rows of adj at every point. -/
theorem before_adjLo {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The second adj window's staging buffer holds its 200 rows of adj at every point. -/
theorem before_adjHi {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's branch, from the grid coordinates. -/
abbrev atFirst (i : grid0.Coords) : Prop := (Scalar.cmpi .ne (Scalar.extui (Scalar.cmpi .eq (BitVec.ofNat 32 (i 0).val) 0#32)) 0#32) = 1#1

/-- It holds at the first point only. -/
theorem atFirst_iff : ∀ t : Fin cfg0.N, atFirst (grid0.coords t) ↔ t.val = 0 :=
  (by decide +kernel : ∀ t : Fin grid0.N, atFirst (grid0.coords t) ↔ t.val = 0)

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The scratch that keeps features · weight from the first point on. -/
abbrev scM : Memref sig .tc .vmem S10000x128 .f32 := Memref.whole cc0_scratch0
/-- One staging buffer of the result window, and the scratch, as views through which contents are stated. -/
abbrev VO : View sig .tc .vmem S400x128 .f32 := (Memref.whole cc0_stg4_0 : Memref sig .tc .vmem S400x128 .f32).view
abbrev VS : View sig .tc .vmem S10000x128 .f32 := scM.view

/-- The scoped buffers the pipeline does not stage are the scratch alone: before the first point it holds anything. -/
theorem scopedRest_scr (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Hand

end
-- ==== Proof.IdealFrame.FirstPoint.lean ====
/-
  The body at the first point. There the branch is taken: the body loads features and weight, stores their
  product into the scratch, then loads the two blocks of adj and the scratch and stores the two halves of the
  result block. The run is stated on any whole staging memrefs: the inputs at their contents, the result
  buffer and the scratch at anything; it ends with the inputs as they were and with the result buffer and the
  scratch overwritten by lists of pieces that the symbolic run finds.
-/
import proofs.«157069_g75763223102025_cont_9to1_m_1222_10_alg».proof.Proof.IdealFrame.Entry

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the result buffer and in the scratch at the first point, with the
    proof that the body runs to a continuation holding them written. -/
noncomputable def runFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc0 : atFirst i)
    (x0 : Vec F S10000x128 .f32) (x1 : Vec F S128x128 .f32) (x2 : Vec F S200x10000 .f32) (x3 : Vec F S200x10000 .f32) :
    Σ' (L4 : List (View.Piece (Elt F) S400x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__gnn_body i arg1 harg1 arg2 harg2 arg3 harg3 arg4 harg4 arg5 harg5 arg6 harg6) K } := by
  refine ⟨?_, ?_, fun E K => ?run⟩
  case run =>
    simp only [cc0__gnn_body_eq_skeleton]; unfold cc0__gnn_body_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.KernelIdeal.Hand

end
-- ==== Proof.IdealFrame.LaterPoint.lean ====
/-
  The body at a later point. There the branch is not taken: the body loads the two blocks of adj and the
  scratch, which still holds what the first point stored, and stores the two halves of the result block. The
  run ends with the inputs and the scratch as they were and with the result buffer overwritten by a list of
  pieces that the symbolic run finds.
-/
import proofs.«157069_g75763223102025_cont_9to1_m_1222_10_alg».proof.Proof.IdealFrame.FirstPoint

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the result buffer at a later point, with the proof that the body
    runs to a continuation holding them written, the scratch untouched at the contents `xs` it was handed. -/
noncomputable def runLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc0 : ¬atFirst i)
    (x0 : Vec F S10000x128 .f32) (x1 : Vec F S128x128 .f32) (x2 : Vec F S200x10000 .f32) (x3 : Vec F S200x10000 .f32) (xs : Vec F S10000x128 .f32) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__gnn_body i arg1 harg1 arg2 harg2 arg3 harg3 arg4 harg4 arg5 harg5 arg6 harg6) K } := by
  refine ⟨?_, fun E K => ?run⟩
  case run =>
    simp only [cc0__gnn_body_eq_skeleton]; unfold cc0__gnn_body_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3
    obtain rfl := harg6.eq_unread hfs
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS

end Cert.KernelIdeal.Hand

end
-- ==== Proof.IdealFrame.Data.lean ====
/-
  The proof data of the pipeline. After the first point the scratch holds features · weight, and it keeps
  that until the end (`support`). After the body at point t the result window's staging buffer holds the
  pieces that point's run stored, read back (`outsAt`); every input window's buffer holds its block. adj is
  read by two windows, each holding one half of the share of its array; the result array is held outright.
  The body obligation at a point is the run of the first or of a later point, by cases on the point.
-/
import proofs.«157069_g75763223102025_cont_9to1_m_1222_10_alg».proof.Proof.IdealFrame.LaterPoint

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the runs leave -/

/-- The first point's two stores into the result buffer tile it, so they cover it. -/
theorem coverFirst_out (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc0 : atFirst i)
    (x0 : Vec F S10000x128 .f32) (x1 : Vec F S128x128 .f32) (x2 : Vec F S200x10000 .f32) (x3 : Vec F S200x10000 .f32) (y : S400x128.Idx) :
    ∃ pc ∈ (runFirst c i arg1 harg1 arg2 harg2 arg3 harg3 arg4 harg4 arg5 harg5 arg6 harg6 hc0 x0 x1 x2 x3).1, y ∈ pc.1.set :=
  View.cover_of_tiledL (runFirst c i arg1 harg1 arg2 harg2 arg3 harg3 arg4 harg4 arg5 harg5 arg6 harg6 hc0 x0 x1 x2 x3).1 S200x128.size (by sl_kernel_rfl) y

/-- What the first point leaves in the result buffer: its pieces read back. -/
def outFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc0 : atFirst i)
    (x0 : Vec F S10000x128 .f32) (x1 : Vec F S128x128 .f32) (x2 : Vec F S200x10000 .f32) (x3 : Vec F S200x10000 .f32) : Vec F S400x128 .f32 :=
  VO.read (Elt F) (VO.writes (Elt F) VO.junk (runFirst c i arg1 harg1 arg2 harg2 arg3 harg3 arg4 harg4 arg5 harg5 arg6 harg6 hc0 x0 x1 x2 x3).1)

/-- The first point's store into the scratch covers it. -/
theorem coverFirst_scr (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc0 : atFirst i)
    (x0 : Vec F S10000x128 .f32) (x1 : Vec F S128x128 .f32) (x2 : Vec F S200x10000 .f32) (x3 : Vec F S200x10000 .f32) (y : S10000x128.Idx) :
    ∃ pc ∈ (runFirst c i arg1 harg1 arg2 harg2 arg3 harg3 arg4 harg4 arg5 harg5 arg6 harg6 hc0 x0 x1 x2 x3).2.1, y ∈ pc.1.set :=
  View.cover_of_tiledL (runFirst c i arg1 harg1 arg2 harg2 arg3 harg3 arg4 harg4 arg5 harg5 arg6 harg6 hc0 x0 x1 x2 x3).2.1 S10000x128.size (by sl_kernel_rfl) y

/-- What the first point leaves in the scratch: its piece read back. -/
def scrFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc0 : atFirst i)
    (x0 : Vec F S10000x128 .f32) (x1 : Vec F S128x128 .f32) (x2 : Vec F S200x10000 .f32) (x3 : Vec F S200x10000 .f32) : Vec F S10000x128 .f32 :=
  VS.read (Elt F) (VS.writes (Elt F) VS.junk (runFirst c i arg1 harg1 arg2 harg2 arg3 harg3 arg4 harg4 arg5 harg5 arg6 harg6 hc0 x0 x1 x2 x3).2.1)

/-- A later point's two stores into the result buffer tile it, so they cover it. -/
theorem coverLater_out (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc0 : ¬atFirst i)
    (x0 : Vec F S10000x128 .f32) (x1 : Vec F S128x128 .f32) (x2 : Vec F S200x10000 .f32) (x3 : Vec F S200x10000 .f32) (xs : Vec F S10000x128 .f32) (y : S400x128.Idx) :
    ∃ pc ∈ (runLater c i arg1 harg1 arg2 harg2 arg3 harg3 arg4 harg4 arg5 harg5 arg6 harg6 hc0 x0 x1 x2 x3 xs).1, y ∈ pc.1.set :=
  View.cover_of_tiledL (runLater c i arg1 harg1 arg2 harg2 arg3 harg3 arg4 harg4 arg5 harg5 arg6 harg6 hc0 x0 x1 x2 x3 xs).1 S200x128.size (by sl_kernel_rfl) y

/-- What a later point leaves in the result buffer: its pieces read back. -/
def outLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc0 : ¬atFirst i)
    (x0 : Vec F S10000x128 .f32) (x1 : Vec F S128x128 .f32) (x2 : Vec F S200x10000 .f32) (x3 : Vec F S200x10000 .f32) (xs : Vec F S10000x128 .f32) : Vec F S400x128 .f32 :=
  VO.read (Elt F) (VO.writes (Elt F) VO.junk (runLater c i arg1 harg1 arg2 harg2 arg3 harg3 arg4 harg4 arg5 harg5 arg6 harg6 hc0 x0 x1 x2 x3 xs).1)

/-! ## Point by point -/

theorem N_pos : 0 < cfg0.N := by rw [show cfg0.N = 25 from N_0]; omega

/-- The first point. -/
abbrev t₀ : Fin cfg0.N := ⟨0, N_pos⟩

/-- What the scratch holds from the first point on. -/
def support (c : Dev nD) : Vec F S10000x128 .f32 :=
  scrFirst c (grid0.coords t₀) (ms0 t₀) (hs0 t₀) (ms1 t₀) (hs1 t₀) (ms2 t₀) (hs2 t₀) (ms3 t₀) (hs3 t₀) (ms4 t₀) (hs4 t₀) scM (Memref.isWhole_whole _) ((atFirst_iff t₀).mpr rfl) (iblk m c 0 t₀) (iblk m c 1 t₀) (iblk m c 2 t₀) (iblk m c 3 t₀)

/-- What the result window's staging buffer holds after the body at position `n`. -/
def outsAt (c : Dev nD) (n : ℕ) (hn : n < cfg0.N) : Vec F S400x128 .f32 :=
  if h : n = 0 then
    outFirst c (grid0.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) scM (Memref.isWhole_whole _) ((atFirst_iff ⟨n, hn⟩).mpr h) (iblk m c 0 ⟨n, hn⟩) (iblk m c 1 ⟨n, hn⟩) (iblk m c 2 ⟨n, hn⟩) (iblk m c 3 ⟨n, hn⟩)
  else
    outLater c (grid0.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) scM (Memref.isWhole_whole _) (fun hc => h ((atFirst_iff ⟨n, hn⟩).mp hc)) (iblk m c 0 ⟨n, hn⟩) (iblk m c 1 ⟨n, hn⟩) (iblk m c 2 ⟨n, hn⟩) (iblk m c 3 ⟨n, hn⟩) (support m c)

theorem outsAt_first (c : Dev nD) (t : Fin cfg0.N) (h : t.val = 0) :
    outsAt m c t.val t.isLt = outFirst c (grid0.coords t) (ms0 t) (hs0 t) (ms1 t) (hs1 t) (ms2 t) (hs2 t) (ms3 t) (hs3 t) (ms4 t) (hs4 t) scM (Memref.isWhole_whole _) ((atFirst_iff t).mpr h) (iblk m c 0 t) (iblk m c 1 t) (iblk m c 2 t) (iblk m c 3 t) := by
  unfold outsAt; exact dif_pos h

theorem outsAt_later (c : Dev nD) (t : Fin cfg0.N) (h : ¬t.val = 0) :
    outsAt m c t.val t.isLt = outLater c (grid0.coords t) (ms0 t) (hs0 t) (ms1 t) (hs1 t) (ms2 t) (hs2 t) (ms3 t) (hs3 t) (ms4 t) (hs4 t) scM (Memref.isWhole_whole _) (fun hc => h ((atFirst_iff t).mp hc)) (iblk m c 0 t) (iblk m c 1 t) (iblk m c 2 t) (iblk m c 3 t) (support m c) := by
  unfold outsAt; exact dif_neg h

/-- The first point's scratch contents are `support`, whichever way the first point is spelled. -/
theorem scrFirst_eq_support (c : Dev nD) (t : Fin cfg0.N) (h : t.val = 0) :
    scrFirst c (grid0.coords t) (ms0 t) (hs0 t) (ms1 t) (hs1 t) (ms2 t) (hs2 t) (ms3 t) (hs3 t) (ms4 t) (hs4 t) scM (Memref.isWhole_whole _) ((atFirst_iff t).mpr h) (iblk m c 0 t) (iblk m c 1 t) (iblk m c 2 t) (iblk m c 3 t) = support m c := by
  obtain ⟨n, hn⟩ := t
  dsimp only at h
  subst h
  rfl

/-- The region invariant before position `n`: before the first point the scratch at anything; afterwards the
    scratch at `support`. -/
def PhiS (c : Dev nD) : (n : ℕ) → n ≤ cfg0.N → sProp 𝕄
  | 0, _ => Pipeline.scopedRest spec0 c
  | _ + 1, _ => owns (c : Thread nD τ) scM fullShare (support m c)

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = owns (c : Thread nD τ) scM fullShare (support m c) := rfl

theorem PhiS_pos (c : Dev nD) (n : ℕ) (h : n ≤ cfg0.N) (hz : n ≠ 0) :
    PhiS m c n h = owns (c : Thread nD τ) scM fullShare (support m c) := by
  cases n with
  | zero => exact absurd rfl hz
  | succ n => rfl

/-! ## The proof data -/

/-- The share each input window holds of its array: the two adj windows one half each. -/
def shareOf : Fin cfg0.W → PosShare TreeShare
  | ⟨2, _⟩ => fullShare.left
  | ⟨3, _⟩ => fullShare.right
  | _ => fullShare

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t.val t.isLt
  Φ t := PhiS m c t.val (Nat.le_of_lt_succ t.isLt)
  q := shareOf
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outsAt m c t.val t.isLt := by dsimp only [dats]

theorem before_0 (c : Dev nD) (t : Fin cfg0.N) (d) : (dats m 0 c).before 0 t d = iblk m c 0 t :=
  before_features m (dats m 0 c) (A_eq m c 0) (after_0 m c) t d
theorem before_1 (c : Dev nD) (t : Fin cfg0.N) (d) : (dats m 0 c).before 1 t d = iblk m c 1 t :=
  before_weight m (dats m 0 c) (A_eq m c 1) (after_1 m c) t d
theorem before_2 (c : Dev nD) (t : Fin cfg0.N) (d) : (dats m 0 c).before 2 t d = iblk m c 2 t :=
  before_adjLo m (dats m 0 c) (A_eq m c 2) (after_2 m c) t d
theorem before_3 (c : Dev nD) (t : Fin cfg0.N) (d) : (dats m 0 c).before 3 t d = iblk m c 3 t :=
  before_adjHi m (dats m 0 c) (A_eq m c 3) (after_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (ms4 t) fullShare (outsAt m c t.val t.isLt) := by
  unfold Dat.leavesExact; rw [show cfg0.idle 4 (cfg0.grid.coords t) = false from rfl, after_4]

set_option maxHeartbeats 4800000 in
/-- The body at any point: every input's memref holds its block; at the first point the scratch holds anything
    and is left at `support`; at a later point it holds `support` and is left so; the result buffer is left at
    the point's pieces read back; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4]
  by_cases hz : t.val = 0
  · rw [outsAt_first m c t hz]
    rw [← scrFirst_eq_support m c t hz]
    unfold outFirst scrFirst; (try dsimp only)
    rw [PhiS_castSucc m c t, PhiS_zero m c _ _ hz, scopedRest_scr]
    iintro ⟨HS, Ho, ⟨%d0, H0⟩, ⟨%d1, H1⟩, ⟨%d2, H2⟩, ⟨%d3, H3⟩, ⟨%d4, H4⟩⟩
    iapply ((runFirst c (grid0.coords t) _ _ _ _ _ _ _ _ _ _ _ _ ((atFirst_iff t).mpr hz) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (coverFirst_scr c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst_out c _ _ _ _ _ _ _ _ _ _ _ _ _ _ _ _ _ _)
  · rw [outsAt_later m c t hz]
    unfold outLater; (try dsimp only)
    rw [PhiS_castSucc m c t, PhiS_pos m c _ _ hz]
    iintro ⟨HS, Ho, ⟨%d0, H0⟩, ⟨%d1, H1⟩, ⟨%d2, H2⟩, ⟨%d3, H3⟩, ⟨%d4, H4⟩⟩
    iapply ((runLater c (grid0.coords t) _ _ _ _ _ _ _ _ _ _ _ _ (fun hc => hz ((atFirst_iff t).mp hc)) (iblk m c 0 t) (iblk m c 1 t) (iblk m c 2 t) (iblk m c 3 t) (support m c)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater_out c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region — the scratch at anything — is the invariant before the first point. -/
theorem hin (c : Dev nD) : iprop((BI.emp : sProp 𝕄) ∗ Pipeline.scopedRest spec0 c) ⊢ (dats m 0 c).Φ 0 := by
  rw [show (dats m 0 c).Φ 0 = PhiS m c 0 (Nat.zero_le _) from rfl, PhiS_zero m c 0 _ rfl]
  iintro ⟨-, H⟩; iexact H

/-- After the last point the invariant gives the scratch back at some contents. -/
theorem hout (c : Dev nD) : (dats m 0 c).Φ (Fin.last cfg0.N) ⊢ iprop((BI.emp : sProp 𝕄) ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), scopedRest_scr]
  iintro HS
  isplitr; · iempintro
  iexists _; iexact HS

end Cert.KernelIdeal.Hand

end
-- ==== Proof.IdealFrame.Pieces.lean ====
/-
  What the runs' pieces are, as payloads of the loaded blocks. The first point's store into the scratch is
  the product payload of features and weight; the loads of the scratch that follow read it back. At every
  point the result buffer is left as two pieces: rows 0..199 the leaky-relu payload of the first adj block
  against the scratch, rows 200..399 that of the second adj block. So the result buffer after point t is one
  and the same expression of the blocks at t and of what the scratch holds from the first point on.
-/
import proofs.«157069_g75763223102025_cont_9to1_m_1222_10_alg».proof.Proof.IdealFrame.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- The first point leaves features · weight (the first payload) in the scratch. -/
theorem scrFirst_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc0 : atFirst i)
    (x0 : Vec F S10000x128 .f32) (x1 : Vec F S128x128 .f32) (x2 : Vec F S200x10000 .f32) (x3 : Vec F S200x10000 .f32) :
    scrFirst c i arg1 harg1 arg2 harg2 arg3 harg3 arg4 harg4 arg5 harg5 arg6 harg6 hc0 x0 x1 x2 x3 = k0_pay1 x0 x1 := by
  unfold scrFirst
  rw [View.read_writes_eq_canon _ _ _ (coverFirst_scr c i arg1 harg1 arg2 harg2 arg3 harg3 arg4 harg4 arg5 harg5 arg6 harg6 hc0 x0 x1 x2 x3)]
  unfold runFirst
  dsimp only
  sl_unfold_words
  rw [View.canon_unit_zero hz]
  simp only [View.readAt_eq_ld, harg1.read_unread, harg2.read_unread, View.ld_unit_zero (S := S10000x128) hz, View.ld_unit_zero (S := S128x128) hz]

/-- The first point leaves the two halves of the result block, each the leaky-relu payload of its adj block
    against the product the scratch has just been given. -/
theorem outFirst_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc0 : atFirst i)
    (x0 : Vec F S10000x128 .f32) (x1 : Vec F S128x128 .f32) (x2 : Vec F S200x10000 .f32) (x3 : Vec F S200x10000 .f32) :
    outFirst c i arg1 harg1 arg2 harg2 arg3 harg3 arg4 harg4 arg5 harg5 arg6 harg6 hc0 x0 x1 x2 x3
      = View.canon [(⟨(Rect.unit (s := S400x128) ![200, 0] S200x128.size inb_S400x128_S200x128_200_0), k0_pay3 x3 (k0_pay1 x0 x1)⟩ : View.Piece (Elt F) S400x128 .f32),
          ⟨(Rect.unit (s := S400x128) ![0, 0] S200x128.size inb_S400x128_S200x128_0_0), k0_pay2 x2 (k0_pay1 x0 x1)⟩] := by
  unfold outFirst
  rw [View.read_writes_eq_canon _ _ _ (coverFirst_out c i arg1 harg1 arg2 harg2 arg3 harg3 arg4 harg4 arg5 harg5 arg6 harg6 hc0 x0 x1 x2 x3)]
  unfold runFirst
  dsimp only
  sl_unfold_words
  rw [View.readCov_unit_zero (S := S10000x128) _ hz]
  simp only [View.readAt_eq_ld, harg1.read_unread, harg2.read_unread, harg3.read_unread, harg4.read_unread,
    View.ld_unit_zero (S := S10000x128) hz, View.ld_unit_zero (S := S128x128) hz, View.ld_unit_zero (S := S200x10000) hz]

/-- A later point leaves the same two pieces, against what the scratch holds. -/
theorem outLater_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc0 : ¬atFirst i)
    (x0 : Vec F S10000x128 .f32) (x1 : Vec F S128x128 .f32) (x2 : Vec F S200x10000 .f32) (x3 : Vec F S200x10000 .f32) (xs : Vec F S10000x128 .f32) :
    outLater c i arg1 harg1 arg2 harg2 arg3 harg3 arg4 harg4 arg5 harg5 arg6 harg6 hc0 x0 x1 x2 x3 xs
      = View.canon [(⟨(Rect.unit (s := S400x128) ![200, 0] S200x128.size inb_S400x128_S200x128_200_0), k0_pay3 x3 xs⟩ : View.Piece (Elt F) S400x128 .f32),
          ⟨(Rect.unit (s := S400x128) ![0, 0] S200x128.size inb_S400x128_S200x128_0_0), k0_pay2 x2 xs⟩] := by
  unfold outLater
  rw [View.read_writes_eq_canon _ _ _ (coverLater_out c i arg1 harg1 arg2 harg2 arg3 harg3 arg4 harg4 arg5 harg5 arg6 harg6 hc0 x0 x1 x2 x3 xs)]
  unfold runLater
  dsimp only
  simp only [View.readAt_eq_ld, harg3.read_unread, harg4.read_unread, harg6.read_unread,
    View.ld_unit_zero (S := S10000x128) hz, View.ld_unit_zero (S := S200x10000) hz]

/-- What the scratch holds from the first point on: features · weight, of the whole arrays. -/
theorem support_eq (c : Dev nD) : support m c = k0_pay1 (iblk m c 0 t₀) (iblk m c 1 t₀) := by
  unfold support; exact scrFirst_eq c _ _ _ _ _ _ _ _ _ _ _ _ _ _ _ _ _ _

/-- After the body at any point the result buffer is the two pieces of that point's adj blocks against `support`. -/
theorem outsAt_eq (c : Dev nD) (t : Fin cfg0.N) :
    outsAt m c t.val t.isLt
      = View.canon [(⟨(Rect.unit (s := S400x128) ![200, 0] S200x128.size inb_S400x128_S200x128_200_0), k0_pay3 (iblk m c 3 t) (support m c)⟩ : View.Piece (Elt F) S400x128 .f32),
          ⟨(Rect.unit (s := S400x128) ![0, 0] S200x128.size inb_S400x128_S200x128_0_0), k0_pay2 (iblk m c 2 t) (support m c)⟩] := by
  by_cases hz' : t.val = 0
  · rw [outsAt_first m c t hz', outFirst_eq, ← scrFirst_eq_support m c t hz', scrFirst_eq]
  · rw [outsAt_later m c t hz', outLater_eq]

end Cert.KernelIdeal.Hand

end
-- ==== Proof.IdealFrame.Launch.lean ====
/-
  The launch. adj is handed to the kernel through two windows, so the buffer behind it, held whole when the
  region is entered, is dealt to them in two halves of its share; features, weight and the result array go
  to their one window each at the full share. With the body obligation this gives the run: every execution
  terminates, and each window's array ends at what the write-backs of the body's results make of its entry
  contents — an input array unchanged.
-/
import proofs.«157069_g75763223102025_cont_9to1_m_1222_10_alg».proof.Proof.IdealFrame.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the windows' arrays, one by one: features, weight, adj, the result. -/
theorem bigSep_arrays {M : Type} [URA M] (Φ : Ref sig .tc → sProp M) :
    bigSep (Finset.univ.image (Pipeline.arrRef spec0)) Φ = iprop(Φ main_arg0 ∗ Φ main_arg2 ∗ Φ main_arg1 ∗ Φ main_v0) :=
  bigSep_eq_bigSepL_of_eq [main_arg0, main_arg2, main_arg1, main_v0] (by decide) (by decide) Φ

/-- The buffers behind the windows' arrays, whole at the entry contents, make the proof data's arrays: the
    adj buffer split between its two windows along the share. -/
theorem arrays_entry (c : Dev nD)
    (G : (w : Fin cfg0.W) → Buf (Elt F) ((cfg0.win w).arr.view.loc (c.tc : Thread nD τ)))
    (hG : ∀ w, G w = V m c (Pipeline.arrRef spec0 w)) :
    (Pipeline.arrBufs (Ix := Unit) (Name := ℕ) (U := UR sig nD τ) (Lvl := ℕ) spec0 c (V m c) : sProp 𝕄) ⊢ (dats m 0 c).arrays G := by
  classical
  have hE : (dats m 0 c).arrays G = bigSep Finset.univ fun w : Fin 5 =>
      ((((c.tc : Thread nD τ).loc (Pipeline.arrRef spec0 w)) ↦{(dats m 0 c).share w} V m c (Pipeline.arrRef spec0 w)) : sProp 𝕄) := by
    unfold Dat.arrays
    exact bigSep_congr fun w _ => by rw [(arr_whole0 w).set_eq_univ, hG]
  rw [hE, bigSep_W0]
  unfold Pipeline.arrBufs
  rw [bigSep_arrays]
  rw [show (dats m 0 c).share 0 = fullShare from rfl, show (dats m 0 c).share 1 = fullShare from rfl,
    show (dats m 0 c).share 2 = fullShare.left from rfl, show (dats m 0 c).share 3 = fullShare.right from rfl,
    show (dats m 0 c).share 4 = fullShare from rfl]
  iintro ⟨H0, H2, H1, Hv⟩
  ihave H1' := (pointsTo_share (PosShare.mem_left_op_right fullShare)).1 $$ H1
  icases H1' with ⟨H1l, H1r⟩
  isplitl [H0]; · iexact H0
  isplitl [H2]; · iexact H2
  isplitl [H1l]; · iexact H1l
  isplitl [H1r]; · iexact H1r
  iexact Hv

set_option backward.isDefEq.respectTransparency.types false in
/-- From any memory with zero counters every weakly fair execution terminates, and every window's array ends
    at what the library computes from the proof data. -/
theorem run_main : θ_run defs (onTc (τ := τ) (main (F := F))) ⟨m, fun _ => 0, ρ⟩
    (fun r => ∀ c : Dev nD, ∀ w : Fin cfg0.W,
      r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := _) (hu₀ := .rfl)
    (V := V m) (hmain := hmain m Variants.none)
    (hsplit := fun c => arrays_entry m c _ (fun _ => rfl))
    (X := fun _ => BI.emp) (Y := fun _ => BI.emp) (Z := fun c => Pipeline.unscopedRest spec0 c (V m c))
    (hX := fun c => by
      iintro H
      isplitr; · iempintro
      iexact H)
    (hin := hin m) (hout := hout m)
    (QY := fun _ _ => True)
    (hY := fun c s' => by
      iintro ⟨-, -, HSI⟩
      imodintro
      isplitr; · ipureintro; trivial
      iexact HSI)
    (hQ := fun s h c w => (h c).1 w)

/-- The frame: the program runs to the end, faults nowhere, and leaves features, adj and weight unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c 0).trans ((dats m 0 c).arrAt_in 0 rfl _), (h c 2).trans ((dats m 0 c).arrAt_in 2 rfl _), (h c 1).trans ((dats m 0 c).arrAt_in 1 rfl _)⟩)
    (run_main m ρ)

end Cert.KernelIdeal.Hand

end
-- ==== Proof.Layer.lean ====
/-
  The layer as one function of the three arrays, over the extended reals, index by index:

      support(r, j) = Σ_{k < 128}   features(r, k) · weight(k, j)
      agg(r, j)     = Σ_{k < 10000} adj(r, k) · support(k, j)
      layer(r, j)   = agg(r, j)            if agg(r, j) ≥ 0
                      0.2f · agg(r, j)     otherwise            (0.2f the float literal, the same word on both sides)

  Both programs compute exactly this grouping of the two sums, so no algebraic law is needed to join them.
-/
import Idealize.ShloMosaic.PureOps.Ideal
import Idealize.ShloMosaic.PureOps.Ideal.Laws
import Idealize.ShloMosaic.Lib.ValueIdx

noncomputable section

namespace Cert.Layer

open Idealize.ShloMosaic Idealize.ShloMosaic.ValueIdx

/-- features · weight. -/
def support (feat : (⟨2, ![10000, 128]⟩ : Shape).Idx → Ideal .f32) (w : (⟨2, ![128, 128]⟩ : Shape).Idx → Ideal .f32) :
    (⟨2, ![10000, 128]⟩ : Shape).Idx → Ideal .f32 :=
  fun i => ∑ k : Fin 128, feat (ix2 (i 0) k) * w (ix2 k (i 1))

/-- adj · (features · weight). -/
def agg (adj : (⟨2, ![10000, 10000]⟩ : Shape).Idx → Ideal .f32) (feat : (⟨2, ![10000, 128]⟩ : Shape).Idx → Ideal .f32)
    (w : (⟨2, ![128, 128]⟩ : Shape).Idx → Ideal .f32) : (⟨2, ![10000, 128]⟩ : Shape).Idx → Ideal .f32 :=
  fun i => ∑ k : Fin 10000, adj (ix2 (i 0) k) * support feat w (ix2 k (i 1))

/-- The leaky rectifier of slope 0.2f on one extended real. -/
def leaky (a : Ideal .f32) : Ideal .f32 :=
  Scalar.select (FloatOps.cmpf .oge a (FloatOps.ofBits .f32 0x00000000#32)) a (FloatOps.mulf (FloatOps.ofBits .f32 0x3E4CCCCD#32) a)

/-- The whole layer. -/
def layer (adj : (⟨2, ![10000, 10000]⟩ : Shape).Idx → Ideal .f32) (feat : (⟨2, ![10000, 128]⟩ : Shape).Idx → Ideal .f32)
    (w : (⟨2, ![128, 128]⟩ : Shape).Idx → Ideal .f32) : (⟨2, ![10000, 128]⟩ : Shape).Idx → Ideal .f32 :=
  fun i => leaky (agg adj feat w i)

end Cert.Layer

end
-- ==== Proof.IdealFrame.Payloads.lean ====
/-
  The kernel's three payloads read at an index, over the extended reals. A matrix product into a zero
  accumulator is the plain sum over the contracted axis; the select over the comparison with zero and the
  product with 0.2f is the leaky rectifier. So the first payload is `support` of its two operands, and the
  other two are the rectifier of the sum over k of the adj block's row times the scratch's column.
-/
import proofs.«157069_g75763223102025_cont_9to1_m_1222_10_alg».proof.Proof.Gen.KernelIdeal.Skeleton
import proofs.«157069_g75763223102025_cont_9to1_m_1222_10_alg».proof.Proof.Layer
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## The operand indices of the two products -/

theorem lhsA_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsA_1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem rhsA_0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem rhsA_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem lhsB_0 (i : S200x128.Idx) (q : dot_S200x10000_S10000x128_S200x128_1_0_0_1_n_n.contr.Idx) : (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhsB_1 (i : S200x128.Idx) (q : dot_S200x10000_S10000x128_S200x128_1_0_0_1_n_n.contr.Idx) : (dot_S200x10000_S10000x128_S200x128_1_0_0_1_n_n.lhsIdx i q 1).val = (q ⟨0, by decide⟩).val :=
  dot_S200x10000_S10000x128_S200x128_1_0_0_1_n_n.lhsIdx_val_of_single rfl i q
theorem rhsB_0 (i : S200x128.Idx) (q : dot_S200x10000_S10000x128_S200x128_1_0_0_1_n_n.contr.Idx) : (dot_S200x10000_S10000x128_S200x128_1_0_0_1_n_n.rhsIdx i q 0).val = (q ⟨0, by decide⟩).val :=
  dot_S200x10000_S10000x128_S200x128_1_0_0_1_n_n.rhsIdx_val_of_single rfl i q
theorem rhsB_1 (i : S200x128.Idx) (q : dot_S200x10000_S10000x128_S200x128_1_0_0_1_n_n.contr.Idx) : (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-! ## The products as sums -/

/-- [10000,128] × [128,128] into zero, at (r, j): the sum over k < 128. -/
theorem matA_apply (x : FVec Ideal S10000x128 .f32) (y : FVec Ideal S128x128 .f32) (i : S10000x128.Idx) :
    matmul dot_S10000x128_S128x128_S10000x128_1_0_0_1_n_n none x y (constant (F := Ideal) S10000x128 .f32 0x00000000#32) i
      = ∑ k : Fin 128, x (ix2 (i 0) k) * y (ix2 k (i 1)) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx i ((ValueIdx.contrEquiv1 dot_S10000x128_S128x128_S10000x128_1_0_0_1_n_n 128 rfl rfl).symm k) = ix2 (i 0) k := funext fun a => Fin.ext (by
    match a with
    | ⟨0, _⟩ => exact lhsA_0 _ _
    | ⟨1, _⟩ => exact (lhsA_1 _ _).trans hk)
  have er : dot_S10000x128_S128x128_S10000x128_1_0_0_1_n_n.rhsIdx i ((ValueIdx.contrEquiv1 dot_S10000x128_S128x128_S10000x128_1_0_0_1_n_n 128 rfl rfl).symm k) = ix2 k (i 1) := funext fun a => Fin.ext (by
    match a with
    | ⟨0, _⟩ => exact (rhsA_0 _ _).trans hk
    | ⟨1, _⟩ => exact rhsA_1 _ _)
  rw [el, er]
  rfl

/-- [200,10000] × [10000,128] into zero, at (p, j): the sum over k < 10000. -/
theorem matB_apply (x : FVec Ideal S200x10000 .f32) (y : FVec Ideal S10000x128 .f32) (i : S200x128.Idx) :
    matmul dot_S200x10000_S10000x128_S200x128_1_0_0_1_n_n none x y (constant (F := Ideal) S200x128 .f32 0x00000000#32) i
      = ∑ k : Fin 10000, x (ix2 (i 0) k) * y (ix2 k (i 1)) := by
  simp only [matmul]
  rw [Ideal.matmul_constant_zero_apply, ← Equiv.sum_comp (ValueIdx.contrEquiv1 dot_S200x10000_S10000x128_S200x128_1_0_0_1_n_n 10000 rfl rfl).symm]
  refine Finset.sum_congr rfl fun k _ => ?_
  have hk := ValueIdx.contrEquiv1_symm_val dot_S200x10000_S10000x128_S200x128_1_0_0_1_n_n 10000 rfl rfl k
  have el : dot_S200x10000_S10000x128_S200x128_1_0_0_1_n_n.lhsIdx i ((ValueIdx.contrEquiv1 dot_S200x10000_S10000x128_S200x128_1_0_0_1_n_n 10000 rfl rfl).symm k) = ix2 (i 0) k := funext fun a => Fin.ext (by
    match a with
    | ⟨0, _⟩ => exact lhsB_0 _ _
    | ⟨1, _⟩ => exact (lhsB_1 _ _).trans hk)
  have er : dot_S200x10000_S10000x128_S200x128_1_0_0_1_n_n.rhsIdx i ((ValueIdx.contrEquiv1 dot_S200x10000_S10000x128_S200x128_1_0_0_1_n_n 10000 rfl rfl).symm k) = ix2 k (i 1) := funext fun a => Fin.ext (by
    match a with
    | ⟨0, _⟩ => exact (rhsB_0 _ _).trans hk
    | ⟨1, _⟩ => exact rhsB_1 _ _)
  rw [el, er]
  rfl

/-! ## The payloads -/

/-- The first payload is `support` of its operands. -/
theorem pay1_eq (x0 : Vec Ideal S10000x128 .f32) (x1 : Vec Ideal S128x128 .f32) :
    k0_pay1 (F := Ideal) x0 x1 = Cert.Layer.support x0 x1 := by
  funext i
  unfold k0_pay1
  rw [shapeCast_self, matA_apply]
  rfl

/-- The second payload at (p, j): the rectifier of Σ_k x(p, k) · s(k, j). -/
theorem pay2_apply (x : Vec Ideal S200x10000 .f32) (s : Vec Ideal S10000x128 .f32) (j : S200x128.Idx) :
    k0_pay2 (F := Ideal) x s j = Cert.Layer.leaky (∑ k : Fin 10000, x (ix2 (j 0) k) * s (ix2 k (j 1))) := by
  have e : k0_pay2 (F := Ideal) x s j
      = Cert.Layer.leaky (matmul dot_S200x10000_S10000x128_S200x128_1_0_0_1_n_n none x s (constant (F := Ideal) S200x128 .f32 0x00000000#32) j) := rfl
  rw [e, matB_apply]

/-- The third payload at (p, j): the same. -/
theorem pay3_apply (x : Vec Ideal S200x10000 .f32) (s : Vec Ideal S10000x128 .f32) (j : S200x128.Idx) :
    k0_pay3 (F := Ideal) x s j = Cert.Layer.leaky (∑ k : Fin 10000, x (ix2 (j 0) k) * s (ix2 k (j 1))) := by
  have e : k0_pay3 (F := Ideal) x s j
      = Cert.Layer.leaky (matmul dot_S200x10000_S10000x128_S200x128_1_0_0_1_n_n none x s (constant (F := Ideal) S200x128 .f32 0x00000000#32) j) := rfl
  rw [e, matB_apply]

end Cert.KernelIdeal.Payload

end
-- ==== Proof.IdealFrame.Value.lean ====
/-
  What the result array holds after the run, over the extended reals: the layer of the three arrays.
  Point t's block of the result array is rows 400t .. 400t+399. Its first 200 rows are computed from window
  2's block of adj (rows 400t .. 400t+199), its last 200 rows from window 3's block (rows 400t+200 ..
  400t+399), each against features · weight of the whole arrays; so what point t writes back is the layer read
  through the point's block. The 25 blocks cover the array: row r lies in block r / 400.
-/
import proofs.«157069_g75763223102025_cont_9to1_m_1222_10_alg».proof.Proof.IdealFrame.Pieces
import proofs.«157069_g75763223102025_cont_9to1_m_1222_10_alg».proof.Proof.IdealFrame.Launch
import proofs.«157069_g75763223102025_cont_9to1_m_1222_10_alg».proof.Proof.IdealFrame.Payloads
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The three arrays as launched. -/
abbrev feat (c : Dev nD) : S10000x128.Idx → Ideal .f32 := m ((c : Thread nD τ).loc main_arg0)
abbrev adj (c : Dev nD) : S10000x10000.Idx → Ideal .f32 := m ((c : Thread nD τ).loc main_arg1)
abbrev wgt (c : Dev nD) : S128x128.Idx → Ideal .f32 := m ((c : Thread nD τ).loc main_arg2)

/-- The result: the layer of the three arrays. -/
def result (c : Dev nD) : Buf (Elt Ideal) ((c : Thread nD τ).loc main_v0) :=
  Cert.Layer.layer (adj m c) (feat m c) (wgt m c)

/-! ## The index maps, decided over the grid -/

theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 2 * t.val ∧ win0_2.index t (1 : Fin 2) = 0
    ∧ win0_3.index t (0 : Fin 2) = 2 * t.val + 1 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 25 := lt_of_lt_of_eq t.isLt (show cfg0.N = 25 from N_0)

/-! ## The input blocks read at an index -/

/-- The features window's block is all of features. -/
theorem iblk0_eq (c : Dev nD) (t : Fin cfg0.N) : (iblk m c 0 t : Vec Ideal S10000x128 .f32) = feat m c := by
  obtain ⟨e0, e1, -⟩ := idx_facts t
  funext y
  unfold iblk
  rw [View.read_apply]
  show V m c main_arg0 _ = m ((c : Thread nD τ).loc main_arg0) y
  unfold V
  congr 1
  funext a
  apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The weight window's block is all of weight. -/
theorem iblk1_eq (c : Dev nD) (t : Fin cfg0.N) : (iblk m c 1 t : Vec Ideal S128x128 .f32) = wgt m c := by
  obtain ⟨-, -, e0, e1, -⟩ := idx_facts t
  funext y
  unfold iblk
  rw [View.read_apply]
  show V m c main_arg2 _ = m ((c : Thread nD τ).loc main_arg2) y
  unfold V
  congr 1
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Window 2's block at point t, at (p, k): adj at row 400t + p. -/
theorem iblk2_apply (c : Dev nD) (t : Fin cfg0.N) (p : Fin 200) (k : Fin 10000) (r : Fin 10000) (hr : r.val = 400 * t.val + p.val) :
    (iblk m c 2 t : Vec Ideal S200x10000 .f32) (ix2 p k) = adj m c (ix2 r k) := by
  obtain ⟨-, -, -, -, e0, e1, -⟩ := idx_facts t
  unfold iblk
  rw [View.read_apply]
  show V m c main_arg1 _ = m ((c : Thread nD τ).loc main_arg1) _
  unfold V
  congr 1
  funext a
  apply Fin.ext
  match a with
  | ⟨0, _⟩ => show win0_2.index t (0 : Fin 2) * 200 + 1 * p.val = r.val; omega
  | ⟨1, _⟩ => show win0_2.index t (1 : Fin 2) * 10000 + 1 * k.val = k.val; omega

/-- Window 3's block at point t, at (p, k): adj at row 400t + 200 + p. -/
theorem iblk3_apply (c : Dev nD) (t : Fin cfg0.N) (p : Fin 200) (k : Fin 10000) (r : Fin 10000) (hr : r.val = 400 * t.val + 200 + p.val) :
    (iblk m c 3 t : Vec Ideal S200x10000 .f32) (ix2 p k) = adj m c (ix2 r k) := by
  obtain ⟨-, -, -, -, -, -, e0, e1, -⟩ := idx_facts t
  unfold iblk
  rw [View.read_apply]
  show V m c main_arg1 _ = m ((c : Thread nD τ).loc main_arg1) _
  unfold V
  congr 1
  funext a
  apply Fin.ext
  match a with
  | ⟨0, _⟩ => show win0_3.index t (0 : Fin 2) * 200 + 1 * p.val = r.val; omega
  | ⟨1, _⟩ => show win0_3.index t (1 : Fin 2) * 10000 + 1 * k.val = k.val; omega

/-- What the scratch holds from the first point on is features · weight of the whole arrays. -/
theorem support_layer (c : Dev nD) : support m c = Cert.Layer.support (feat m c) (wgt m c) := by
  rw [support_eq, iblk0_eq, iblk1_eq, Cert.KernelIdeal.Payload.pay1_eq]

/-! ## What a point writes back -/

/-- Where an element of the result block sits in the result array: row 400t + its row. -/
theorem blk4_emb (t : Fin cfg0.N) (y : S400x128.Idx) (r : Fin 10000) (hr : r.val = 400 * t.val + (y 0).val) :
    ((cfg0.win 4).blk t).view.emb y = ix2 r (y 1) := by
  obtain ⟨-, -, -, -, -, -, -, -, e0, e1⟩ := idx_facts t
  funext a
  apply Fin.ext
  match a with
  | ⟨0, _⟩ => show win0_4.index t (0 : Fin 2) * 400 + 1 * (y 0).val = r.val; omega
  | ⟨1, _⟩ => show win0_4.index t (1 : Fin 2) * 128 + 1 * (y 1).val = (y 1).val; omega

/-- The layer at row r, column q, from any block of adj that holds row r and the scratch's contents. -/
theorem layer_of_block (c : Dev nD) (x : Vec Ideal S200x10000 .f32) (p : Fin 200) (q : Fin 128) (r : Fin 10000)
    (hx : ∀ k : Fin 10000, x (ix2 p k) = adj m c (ix2 r k)) :
    Cert.Layer.leaky (∑ k : Fin 10000, x (ix2 p k) * support m c (ix2 k q)) = result m c (ix2 r q) := by
  unfold result Cert.Layer.layer Cert.Layer.agg
  rw [support_layer]
  exact congrArg Cert.Layer.leaky (Finset.sum_congr rfl fun k _ => by rw [hx k])

/-- Where the rows 200..399 piece sits in the result block. -/
theorem hi_emb (p : Fin 200) (q : Fin 128) (r : Fin 400) (hr : r.val = 200 + p.val) :
    (Rect.unit (s := S400x128) ![200, 0] S200x128.size inb_S400x128_S200x128_200_0).emb (ix2 p q) = ix2 r q := by
  funext a
  apply Fin.ext
  match a with
  | ⟨0, _⟩ => show 200 + 1 * p.val = r.val; omega
  | ⟨1, _⟩ => show 0 + 1 * q.val = q.val; omega

/-- Where the rows 0..199 piece sits in the result block. -/
theorem lo_emb (p : Fin 200) (q : Fin 128) (r : Fin 400) (hr : r.val = p.val) :
    (Rect.unit (s := S400x128) ![0, 0] S200x128.size inb_S400x128_S200x128_0_0).emb (ix2 p q) = ix2 r q := by
  funext a
  apply Fin.ext
  match a with
  | ⟨0, _⟩ => show 0 + 1 * p.val = r.val; omega
  | ⟨1, _⟩ => show 0 + 1 * q.val = q.val; omega

/-- The rows 200..399 piece of point t's block, from any block of adj holding rows 400t+200 .. 400t+399, is the
    layer at its place in the result array. -/
theorem hi_piece (c : Dev nD) (t : Fin cfg0.N) (x : Vec Ideal S200x10000 .f32)
    (hx : ∀ (p : Fin 200) (k : Fin 10000) (r : Fin 10000), r.val = 400 * t.val + 200 + p.val → x (ix2 p k) = adj m c (ix2 r k))
    (z : S200x128.Idx) :
    k0_pay3 (F := Ideal) x (support m c) z = result m c (((cfg0.win 4).blk t).view.emb ((Rect.unit (s := S400x128) ![200, 0] S200x128.size inb_S400x128_S200x128_200_0).emb z)) := by
  have ht := t_lt t
  obtain ⟨p, q, rfl⟩ : ∃ (p : Fin 200) (q : Fin 128), z = ix2 p q := ⟨z 0, z 1, eq_ix2 z⟩
  have hp := p.isLt
  refine (Cert.KernelIdeal.Payload.pay3_apply x (support m c) (ix2 p q)).trans ?_
  rw [hi_emb p q ⟨200 + p.val, by omega⟩ rfl,
    blk4_emb t (ix2 (⟨200 + p.val, by omega⟩ : Fin 400) q) ⟨400 * t.val + 200 + p.val, by omega⟩
      (by show 400 * t.val + 200 + p.val = 400 * t.val + (200 + p.val); omega)]
  exact layer_of_block m c x p q ⟨400 * t.val + 200 + p.val, by omega⟩ (fun k => hx p k _ rfl)

/-- The rows 0..199 piece, from any block of adj holding rows 400t .. 400t+199. -/
theorem lo_piece (c : Dev nD) (t : Fin cfg0.N) (x : Vec Ideal S200x10000 .f32)
    (hx : ∀ (p : Fin 200) (k : Fin 10000) (r : Fin 10000), r.val = 400 * t.val + p.val → x (ix2 p k) = adj m c (ix2 r k))
    (z : S200x128.Idx) :
    k0_pay2 (F := Ideal) x (support m c) z = result m c (((cfg0.win 4).blk t).view.emb ((Rect.unit (s := S400x128) ![0, 0] S200x128.size inb_S400x128_S200x128_0_0).emb z)) := by
  have ht := t_lt t
  obtain ⟨p, q, rfl⟩ : ∃ (p : Fin 200) (q : Fin 128), z = ix2 p q := ⟨z 0, z 1, eq_ix2 z⟩
  have hp := p.isLt
  refine (Cert.KernelIdeal.Payload.pay2_apply x (support m c) (ix2 p q)).trans ?_
  rw [lo_emb p q ⟨p.val, by omega⟩ rfl,
    blk4_emb t (ix2 (⟨p.val, by omega⟩ : Fin 400) q) ⟨400 * t.val + p.val, by omega⟩
      (by show 400 * t.val + p.val = 400 * t.val + p.val; rfl)]
  exact layer_of_block m c x p q ⟨400 * t.val + p.val, by omega⟩ (fun k => hx p k _ rfl)

/-- What point t writes back is the layer read through the point's block. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after_4, outsAt_eq]
  funext y
  rw [View.read_apply]
  refine View.canon_apply_of_pieces (fun y => result m c (((cfg0.win 4).blk t).view.emb y)) _ ?_ y
    (View.cover_of_tiledL (s := S400x128) _ S200x128.size (by sl_kernel_rfl) y)
  intro pc hpc
  simp only [List.mem_cons, List.mem_nil_iff, or_false] at hpc
  rcases hpc with rfl | rfl
  · exact hi_piece m c t (iblk m c 3 t) (fun p k r hr => iblk3_apply m c t p k r hr)
  · exact lo_piece m c t (iblk m c 2 t) (fun p k r hr => iblk2_apply m c t p k r hr)

/-! ## The array after the run -/

/-- An index of the result array is in point t's block iff each coordinate is in the block's range. -/
theorem mem_blk4 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- The result array ends holding the layer. -/
theorem final (c : Dev nD) : (dats m 0 c).arrAt 4 cfg0.N = result m c :=
  (dats m 0 c).arrAt_eq_of_cover 4 (result m c) (fun t _ => flushed_eq m c t) fun i => by
    have hi0 : (i 0).val < 10000 := (i 0).isLt
    have hi1 : (i 1).val < 128 := (i 1).isLt
    have hN : cfg0.N = 25 := N_0
    refine ⟨⟨(i 0).val / 400, by omega⟩, flush0_4 _, ?_⟩
    rw [mem_blk4]
    obtain ⟨-, -, -, -, -, -, -, -, e0, e1⟩ := idx_facts ⟨(i 0).val / 400, by omega⟩
    intro a
    match a with
    | ⟨0, _⟩ => show win0_4.index _ (0 : Fin 2) * 400 ≤ (i 0).val ∧ (i 0).val < win0_4.index _ (0 : Fin 2) * 400 + 400; rw [e0]; dsimp only; omega
    | ⟨1, _⟩ => show win0_4.index _ (1 : Fin 2) * 128 ≤ (i 1).val ∧ (i 1).val < win0_4.index _ (1 : Fin 2) * 128 + 128; rw [e1]; omega

/-- The run, read: the result array at the layer of the arguments, the arguments unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(h c 4).trans (final m c), (h c 0).trans ((dats m 0 c).arrAt_in 0 rfl _), (h c 2).trans ((dats m 0 c).arrAt_in 2 rfl _),
      (h c 1).trans ((dats m 0 c).arrAt_in 1 rfl _)⟩)
    (run_main m ρ)

end Cert.KernelIdeal.Hand

end
-- ==== Proof.RefLayer.lean ====
/-
  The reference computes the layer: its two dot_generals are the two sums (each read at an index as a sum
  over the contracted axis), its comparison, product and select the leaky rectifier.
-/
import proofs.«157069_g75763223102025_cont_9to1_m_1222_10_alg».proof.Proof.Gen.ReferenceIdeal.Read
import proofs.«157069_g75763223102025_cont_9to1_m_1222_10_alg».proof.Proof.Layer

noncomputable section

namespace Cert.ReferenceIdeal.RefValue

open Cert.ReferenceIdeal Cert.ReferenceIdeal.Gen Cert.ReferenceIdeal.Read Idealize.ShloMosaic Idealize.ShloMosaic.ValueIdx

theorem lidx1_eq (i : S10000x128.Idx) (k : Fin 10000) : lidx_main_v1 i k = ix2 (i 0) k :=
  funext fun a => by match a with | ⟨0, _⟩ => rfl | ⟨1, _⟩ => rfl
theorem ridx1_eq (i : S10000x128.Idx) (k : Fin 10000) : ridx_main_v1 i k = ix2 k (i 1) :=
  funext fun a => by match a with | ⟨0, _⟩ => rfl | ⟨1, _⟩ => rfl
theorem lidx0_eq (i : S10000x128.Idx) (k : Fin 128) : lidx_main_v0 i k = ix2 (i 0) k :=
  funext fun a => by match a with | ⟨0, _⟩ => rfl | ⟨1, _⟩ => rfl
theorem ridx0_eq (i : S10000x128.Idx) (k : Fin 128) : ridx_main_v0 i k = ix2 k (i 1) :=
  funext fun a => by match a with | ⟨0, _⟩ => rfl | ⟨1, _⟩ => rfl

/-- The reference's first product is `support`. -/
theorem v0_eq (x0 : (⟨S10000x128, .f32⟩ : BufTy).Contents (Elt Ideal)) (x2 : (⟨S128x128, .f32⟩ : BufTy).Contents (Elt Ideal)) :
    val_main_v0 (F := Ideal) x0 x2 = Cert.Layer.support x0 x2 := by
  funext i
  rw [val_main_v0_apply]
  simp only [lidx0_eq, ridx0_eq]
  rfl

/-- The reference's second product is `agg`. -/
theorem v1_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    val_main_v1 (F := Ideal) x0 x1 x2 = Cert.Layer.agg x1 x0 x2 := by
  funext i
  rw [val_main_v1_apply, v0_eq]
  simp only [lidx1_eq, ridx1_eq]
  rfl

/-- The reference's result is the layer. -/
theorem result_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    val_main_v6 (F := Ideal) x0 x1 x2 = Cert.Layer.layer x1 x0 x2 := by
  funext i
  rw [val_main_v6_apply, val_main_v3_apply, val_main_v5_apply, val_main_v2_apply, val_main_v4_apply, val_main_cst_apply,
    val_main_cst_0_apply, v1_eq]
  rfl

end Cert.ReferenceIdeal.RefValue

end
-- ==== Proof.lean ====
/-
  The layer out = leaky_relu(adj · (features · weight), slope 0.2f), features [10000,128], adj [10000,10000],
  weight [128,128]: one pipelined kernel against the plain two-product reference, equal over the extended reals.

  The kernel runs 25 grid points. At the first it stores features · weight into a scratch that stays resident;
  at every point it multiplies two 200-row blocks of adj (rows 400t .. 400t+199 and 400t+200 .. 400t+399, adj
  being read through two windows) against the scratch and stores the rectified products as the two halves of
  the result's block of rows 400t .. 400t+399. The reference computes support = features · weight, then
  adj · support, then the same select. Both sides are therefore the same function `Cert.Layer.layer`, index by
  index, with the same grouping of the two sums and the same float literal for the slope: no law of the
  extended reals beyond unfolding is needed, and finiteness of the inputs is not used.

  Frames: both readings of the kernel (word level and extended reals) run to the end, fault nowhere and leave
  the three argument arrays unchanged — adj's buffer is dealt to its two windows in two halves of its share;
  the reference's frame is its run with the result dropped. The idealization rewrote nothing.
-/
import proofs.«157069_g75763223102025_cont_9to1_m_1222_10_alg».proof.Defs
import proofs.«157069_g75763223102025_cont_9to1_m_1222_10_alg».proof.Proof.Gen.Kernel
import proofs.«157069_g75763223102025_cont_9to1_m_1222_10_alg».proof.Proof.Gen.KernelIdeal
import proofs.«157069_g75763223102025_cont_9to1_m_1222_10_alg».proof.Proof.Gen.ReferenceIdeal
import proofs.«157069_g75763223102025_cont_9to1_m_1222_10_alg».proof.Proof.Gen.Pre_finite_inputs
import proofs.«157069_g75763223102025_cont_9to1_m_1222_10_alg».proof.Proof.Gen.ReferenceIdeal.Run
import proofs.«157069_g75763223102025_cont_9to1_m_1222_10_alg».proof.Proof.Gen.ReferenceIdeal.Read
import proofs.«157069_g75763223102025_cont_9to1_m_1222_10_alg».proof.Proof.BitsFrame.Launch
import proofs.«157069_g75763223102025_cont_9to1_m_1222_10_alg».proof.Proof.IdealFrame.Value
import proofs.«157069_g75763223102025_cont_9to1_m_1222_10_alg».proof.Proof.RefLayer

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals the kernel's result array ends at the layer of its arguments, and the reference's
    result at the layer of arguments that agree with them. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
